-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S64x8 .f32) (main_arg6 : FVec F S8 .f32) (main_arg7 : FVec F S64x8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x8 .f32 := Host.absf main_arg5
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S64x8 .f32 := Host.absf main_arg7
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x8 .f32) (main_arg6 : FVec F S8 .f32) (main_arg7 : FVec F S64x8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩
abbrev S1x8 : Shape := ⟨2, ![1, 8]⟩
abbrev S50000x8 : Shape := ⟨2, ![50000, 8]⟩
abbrev S5000x8 : Shape := ⟨2, ![5000, 8]⟩

abbrev nBuf : Space → Nat
  | .hbm => 55
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x8, .f32⟩
  | .hbm, ⟨6, _⟩ => ⟨S8, .f32⟩
  | .hbm, ⟨7, _⟩ => ⟨S64x8, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S1x8, .f32⟩
  | .hbm, ⟨54, _⟩ => ⟨S50000x8, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x8, .f32⟩
  | .local _ .vmem, ⟨18, _⟩ => ⟨S1x8, .f32⟩
  | .local _ .vmem, ⟨19, _⟩ => ⟨S64x8, .f32⟩
  | .local _ .vmem, ⟨20, _⟩ => ⟨S5000x8, .f32⟩
  | .local _ .vmem, ⟨21, _⟩ => ⟨S5000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S8_S1x8 : S8.ShapeCasts S1x8
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S64x8.size a
  hwx1_3 : ∀ i : grid1.Coords, EltTy.bits .f32 = 32 ∨ (Rect.block (s := S64x8) S64x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x8.size a ≤ S64x8.size a
  hwx1_5 : ∀ i : grid1.Coords, EltTy.bits .f32 = 32 ∨ (Rect.block (s := S64x8) S64x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x8.size a ≤ S50000x8.size a
  hwx1_6 : ∀ i : grid1.Coords, EltTy.bits .f32 = 32 ∨ (Rect.block (s := S50000x8) S5000x8.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x8.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x8 : Shape := ⟨2, ![50000, 8]⟩
abbrev S1x8 : Shape := ⟨2, ![1, 8]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x8, .f32⟩
  | .hbm, ⟨6, _⟩ => ⟨S8, .f32⟩
  | .hbm, ⟨7, _⟩ => ⟨S64x8, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x8, .f32⟩
  | .hbm, ⟨69, _⟩ => ⟨S1x8, .f32⟩
  | .hbm, ⟨70, _⟩ => ⟨S50000x8, .f32⟩
  | .hbm, ⟨71, _⟩ => ⟨S50000x8, .f32⟩
  | .hbm, ⟨72, _⟩ => ⟨S50000x8, .f32⟩
  | .hbm, ⟨73, _⟩ => ⟨S50000x8, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x8_S50000x8_1_0_0_1_n_n_wf : DotDims.WF S50000x64 S64x8 S50000x8 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KBody.lean ====
/-
  What one grid point of each layer's kernel stores, read at a row `r` of its 5000-row block and an output column `j`.

  The body loads the block of neighbour sums, the block of reciprocal degrees (a `[5000, 1]` column), the block of node
  features, the two weight matrices and the bias row; it scales the neighbour sums row by row, multiplies by the left
  weights into a zero accumulator, adds the bias row, and adds the product of the node features with the right weights.
  On the extended reals the roundings to bf16 are the identity and a matrix product into zero is the plain sum over the
  64 contracted positions, so the stored value at `(r, j)` is

    `(∑ₖ (agg(r,k) · inv(r,0)) · Wl(k,j)) + b(0,j) + ∑ₖ x(r,k) · Wr(k,j)`.
-/
import proofs.«102011_j46943992545895_1_alg».proof.Proof.Gen.KernelIdeal.Skeleton
import proofs.«102011_j46943992545895_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The two matrix products at an index -/

abbrev D64 : DotDims S5000x64 S64x64 S5000x64 := dot_S5000x64_S64x64_S5000x64_1_0_0_1_n_n
abbrev D8 : DotDims S5000x64 S64x8 S5000x8 := dot_S5000x64_S64x8_S5000x8_1_0_0_1_n_n

theorem lhs64_0 (i : S5000x64.Idx) (q : D64.contr.Idx) : (D64.lhsIdx i q 0).val = (i 0).val := by
  unfold DotDims.lhsIdx
  rw [dif_neg (show ¬(0 : Fin S5000x64.rank) ∈ D64.lhsBatch by decide), dif_pos (show (0 : Fin S5000x64.rank) ∈ D64.lhsNonContracting by decide)]
  rfl
theorem rhs64_1 (i : S5000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

/-- A `[5000, 64] × [64, 64]` product into a zero accumulator, at `(r, j)`: the sum over the 64 contracted positions. -/
theorem mm64_apply {φ₁ φ₂ : FTy} (A : FVec Ideal S5000x64 φ₁) (B : FVec Ideal S64x64 φ₂) (r : Fin 5000) (j : Fin 64) :
    matmul (F := Ideal) D64 none A B (constant (F := Ideal) S5000x64 .f32 0x00000000#32) (ix2 r j)
      = ∑ k : Fin 64, A (ix2 r k) * B (ix2 k j) := by
  simp only [matmul]
  rw [Ideal.matmul_constant_zero_apply, ← Equiv.sum_comp (contrEquiv1 D64 64 rfl rfl).symm]
  refine Finset.sum_congr rfl fun k _ => ?_
  have hk := contrEquiv1_symm_val D64 64 rfl rfl k
  have el : D64.lhsIdx (ix2 r j) ((contrEquiv1 D64 64 rfl rfl).symm k) = ix2 r k := funext fun a => Fin.ext (by
    match a with
    | ⟨0, _⟩ => exact lhs64_0 _ _
    | ⟨1, _⟩ => exact (D64.lhsIdx_val_of_single rfl _ _).trans hk)
  have er : D64.rhsIdx (ix2 r j) ((contrEquiv1 D64 64 rfl rfl).symm k) = ix2 k j := funext fun a => Fin.ext (by
    match a with
    | ⟨0, _⟩ => exact (D64.rhsIdx_val_of_single rfl _ _).trans hk
    | ⟨1, _⟩ => exact rhs64_1 _ _)
  rw [el, er]

theorem lhs8_0 (i : S5000x8.Idx) (q : D8.contr.Idx) : (D8.lhsIdx i q 0).val = (i 0).val := by
  unfold DotDims.lhsIdx
  rw [dif_neg (show ¬(0 : Fin S5000x64.rank) ∈ D8.lhsBatch by decide), dif_pos (show (0 : Fin S5000x64.rank) ∈ D8.lhsNonContracting by decide)]
  rfl
theorem rhs8_1 (i : S5000x8.Idx) (q : D8.contr.Idx) : (D8.rhsIdx i q 1).val = (i 1).val := by
  unfold DotDims.rhsIdx
  rw [dif_neg (show ¬(1 : Fin S64x8.rank) ∈ D8.rhsBatch by decide), dif_pos (show (1 : Fin S64x8.rank) ∈ D8.rhsNonContracting by decide)]
  rfl

/-- A `[5000, 64] × [64, 8]` product into a zero accumulator, at `(r, j)`: the sum over the 64 contracted positions. -/
theorem mm8_apply {φ₁ φ₂ : FTy} (A : FVec Ideal S5000x64 φ₁) (B : FVec Ideal S64x8 φ₂) (r : Fin 5000) (j : Fin 8) :
    matmul (F := Ideal) D8 none A B (constant (F := Ideal) S5000x8 .f32 0x00000000#32) (ix2 r j)
      = ∑ k : Fin 64, A (ix2 r k) * B (ix2 k j) := by
  simp only [matmul]
  rw [Ideal.matmul_constant_zero_apply, ← Equiv.sum_comp (contrEquiv1 D8 64 rfl rfl).symm]
  refine Finset.sum_congr rfl fun k _ => ?_
  have hk := contrEquiv1_symm_val D8 64 rfl rfl k
  have el : D8.lhsIdx (ix2 r j) ((contrEquiv1 D8 64 rfl rfl).symm k) = ix2 r k := funext fun a => Fin.ext (by
    match a with
    | ⟨0, _⟩ => exact lhs8_0 _ _
    | ⟨1, _⟩ => exact (D8.lhsIdx_val_of_single rfl _ _).trans hk)
  have er : D8.rhsIdx (ix2 r j) ((contrEquiv1 D8 64 rfl rfl).symm k) = ix2 k j := funext fun a => Fin.ext (by
    match a with
    | ⟨0, _⟩ => exact (D8.rhsIdx_val_of_single rfl _ _).trans hk
    | ⟨1, _⟩ => exact rhs8_1 _ _)
  rw [el, er]

/-! ## The stored value of each layer's body at `(r, j)` -/

/-- Layer 1 (64 outputs). -/
theorem pay0_apply (v0 : Vec Ideal S5000x64 .f32) (v2 : Vec Ideal S5000x1 .f32) (v7 : Vec Ideal S5000x64 .f32)
    (v9 v11 : Vec Ideal S64x64 .f32) (v14 : Vec Ideal S1x64 .f32) (r : Fin 5000) (j : Fin 64) :
    k0_pay1 (F := Ideal) v0 v2 v7 v9 v11 v14 (ix2 r j)
      = ((∑ k : Fin 64, (v0 (ix2 r k) * v2 (ix2 r (0 : Fin 1))) * v9 (ix2 k j)) + v14 (ix2 (0 : Fin 1) j))
        + ∑ k : Fin 64, v7 (ix2 r k) * v11 (ix2 k j) := by
  unfold k0_pay1
  refine congrArg₂ (· + ·) (congrArg₂ (· + ·) ?_ ?_) ?_
  · refine (mm64_apply _ _ r j).trans (Finset.sum_congr rfl fun k _ => ?_)
    show (shapeCast S5000x64 v0 _ (ix2 r k) * broadcastTo S5000x64 (shapeCast S5000x1 v2 _) _ (ix2 r k)) * v9 (ix2 k j) = _
    rw [shapeCast_self, LibKeepdims.broadcastTo_a1_ab_apply, shapeCast_self]
  · show broadcastTo S5000x64 (shapeCast S1x64 v14 _) _ (ix2 r j) = _
    rw [broadcastTo_1b_ab_apply, shapeCast_self]
  · exact mm64_apply _ _ r j

/-- Layer 2 (8 outputs). -/
theorem pay1_apply (v0 : Vec Ideal S5000x64 .f32) (v2 : Vec Ideal S5000x1 .f32) (v7 : Vec Ideal S5000x64 .f32)
    (v10 v12 : Vec Ideal S64x8 .f32) (v15 : Vec Ideal S1x8 .f32) (r : Fin 5000) (j : Fin 8) :
    k1_pay1 (F := Ideal) v0 v2 v7 v10 v12 v15 (ix2 r j)
      = ((∑ k : Fin 64, (v0 (ix2 r k) * v2 (ix2 r (0 : Fin 1))) * v10 (ix2 k j)) + v15 (ix2 (0 : Fin 1) j))
        + ∑ k : Fin 64, v7 (ix2 r k) * v12 (ix2 k j) := by
  unfold k1_pay1
  refine congrArg₂ (· + ·) (congrArg₂ (· + ·) ?_ ?_) ?_
  · refine (mm8_apply _ _ r j).trans (Finset.sum_congr rfl fun k _ => ?_)
    show (shapeCast S5000x64 v0 _ (ix2 r k) * broadcastTo S5000x64 (shapeCast S5000x1 v2 _) _ (ix2 r k)) * v10 (ix2 k j) = _
    rw [shapeCast_self, LibKeepdims.broadcastTo_a1_ab_apply, shapeCast_self]
  · show broadcastTo S5000x8 (shapeCast S1x8 v15 _) _ (ix2 r j) = _
    rw [broadcastTo_1b_ab_apply, shapeCast_self]
  · refine (mm8_apply _ _ r j).trans (Finset.sum_congr rfl fun k _ => ?_)
    show shapeCast S5000x64 v7 _ (ix2 r k) * v12 (ix2 k j) = _
    rw [shapeCast_self]

end Cert.KernelIdeal.Hand

end
-- ==== Proof.LibSageLayer.lean ====
/-
  One mean-aggregation graph layer over the extended reals, in two spellings, and the law that joins them.

  A layer takes, for each of 50000 nodes `p`, the summed neighbour features `agg p ·`, the node's own
  features `x p ·` (64 of each), and a divisor `d p` (the node's in-degree, clamped below by one); it returns
  `(agg p · / d p) · Wl + bl + x p · Wr`, a row of `Fo` outputs.

  * `layer` divides every summed feature by the divisor before the product with `Wl`.
  * `layerK` multiplies it by a precomputed reciprocal, kept as a `[50000, 1]` column, and reads the bias from a
    `[1, Fo]` row.

  On the extended reals `a / y` is `a * y⁻¹` for every `y ≠ 0`, the infinities included, and `1 / y` is `y⁻¹`;
  so `a / y = a * (1 / y)` whenever `y ≠ 0`, with no finiteness asked of `a` or of `y`. A divisor `max d 1` is
  at least one, hence never zero. That is the whole law: the two spellings are one function.

  `model` is two layers in sequence, the second fed by the first's output, the neighbour sum an arbitrary
  operator `A` on feature arrays (the same gather-and-scatter over the edge list on both sides of a comparison).
-/
import Idealize.ShloMosaic.PureOps.Ideal
import Idealize.ShloMosaic.Lib.ValueIdx

noncomputable section

namespace Cert.LibSageLayer

open Idealize.ShloMosaic Idealize.ShloMosaic.ValueIdx

/-- Division by a nonzero extended real is the product with its reciprocal: both are `a * y⁻¹`. -/
theorem div_eq_mul_one_div (a y : EReal) (hy : y ≠ 0) : Ideal.div a y = a * Ideal.div 1 y := by
  unfold Ideal.div
  rw [if_neg hy, if_neg hy, one_mul]

/-- A value clamped below by one is not zero. -/
theorem max_one_ne_zero (d : EReal) : max d 1 ≠ 0 := by
  intro h0
  have h : (1 : EReal) ≤ max d 1 := le_max_right _ _
  rw [h0] at h
  exact absurd h (not_le.mpr zero_lt_one)

variable {Fo : ℕ}

/-- One output of a layer, the neighbour sum DIVIDED by the divisor:
    `(∑ₖ agg(p,k) / d(p) · Wl(k,j)) + bl(j) + ∑ₖ x(p,k) · Wr(k,j)`. -/
def layerAt (agg x : (⟨2, ![50000, 64]⟩ : Shape).Idx → EReal) (d : (⟨1, ![50000]⟩ : Shape).Idx → EReal)
    (Wl Wr : (⟨2, ![64, Fo]⟩ : Shape).Idx → EReal) (bl : (⟨1, ![Fo]⟩ : Shape).Idx → EReal)
    (p : Fin 50000) (j : Fin Fo) : EReal :=
  ((∑ k : Fin 64, Ideal.div (agg (ix2 p k)) (d (ix1 p)) * Wl (ix2 k j)) + bl (ix1 j))
    + ∑ k : Fin 64, x (ix2 p k) * Wr (ix2 k j)

/-- The layer as an array. -/
def layer (agg x : (⟨2, ![50000, 64]⟩ : Shape).Idx → EReal) (d : (⟨1, ![50000]⟩ : Shape).Idx → EReal)
    (Wl Wr : (⟨2, ![64, Fo]⟩ : Shape).Idx → EReal) (bl : (⟨1, ![Fo]⟩ : Shape).Idx → EReal) :
    (⟨2, ![50000, Fo]⟩ : Shape).Idx → EReal :=
  fun i => layerAt agg x d Wl Wr bl (i 0) (i 1)

/-- One output of a layer, the neighbour sum MULTIPLIED by a reciprocal column, the bias read from a row:
    `(∑ₖ (agg(p,k) · inv(p,0)) · Wl(k,j)) + b(0,j) + ∑ₖ x(p,k) · Wr(k,j)`. -/
def layerKAt (agg x : (⟨2, ![50000, 64]⟩ : Shape).Idx → EReal) (inv : (⟨2, ![50000, 1]⟩ : Shape).Idx → EReal)
    (Wl Wr : (⟨2, ![64, Fo]⟩ : Shape).Idx → EReal) (brow : (⟨2, ![1, Fo]⟩ : Shape).Idx → EReal)
    (p : Fin 50000) (j : Fin Fo) : EReal :=
  ((∑ k : Fin 64, (agg (ix2 p k) * inv (ix2 p (0 : Fin 1))) * Wl (ix2 k j)) + brow (ix2 (0 : Fin 1) j))
    + ∑ k : Fin 64, x (ix2 p k) * Wr (ix2 k j)

/-- That layer as an array. -/
def layerK (agg x : (⟨2, ![50000, 64]⟩ : Shape).Idx → EReal) (inv : (⟨2, ![50000, 1]⟩ : Shape).Idx → EReal)
    (Wl Wr : (⟨2, ![64, Fo]⟩ : Shape).Idx → EReal) (brow : (⟨2, ![1, Fo]⟩ : Shape).Idx → EReal) :
    (⟨2, ![50000, Fo]⟩ : Shape).Idx → EReal :=
  fun i => layerKAt agg x inv Wl Wr brow (i 0) (i 1)

/-- THE LAW. When the column holds the reciprocals of a divisor that is nowhere zero, and the row holds the bias,
    the two spellings of the layer are one array: `a / y = a * (1 / y)` term by term under the first sum. -/
theorem layerK_eq_layer (agg x : (⟨2, ![50000, 64]⟩ : Shape).Idx → EReal) (d : (⟨1, ![50000]⟩ : Shape).Idx → EReal)
    (Wl Wr : (⟨2, ![64, Fo]⟩ : Shape).Idx → EReal) (bl : (⟨1, ![Fo]⟩ : Shape).Idx → EReal)
    (inv : (⟨2, ![50000, 1]⟩ : Shape).Idx → EReal) (brow : (⟨2, ![1, Fo]⟩ : Shape).Idx → EReal)
    (hd : ∀ p : Fin 50000, d (ix1 p) ≠ 0)
    (hinv : ∀ p : Fin 50000, inv (ix2 p (0 : Fin 1)) = Ideal.div 1 (d (ix1 p)))
    (hb : ∀ j : Fin Fo, brow (ix2 (0 : Fin 1) j) = bl (ix1 j)) :
    layerK agg x inv Wl Wr brow = layer agg x d Wl Wr bl := by
  funext i
  obtain ⟨p, j, rfl⟩ : ∃ (p : Fin 50000) (j : Fin Fo), i = ix2 p j := ⟨i 0, i 1, eq_ix2 i⟩
  show layerKAt agg x inv Wl Wr brow p j = layerAt agg x d Wl Wr bl p j
  unfold layerKAt layerAt
  rw [hinv p, hb j]
  refine congrArg (· + _) (congrArg (· + _) (Finset.sum_congr rfl fun k _ => ?_))
  rw [div_eq_mul_one_div (agg (ix2 p k)) _ (hd p)]

/-- Two layers in sequence over one neighbour-sum operator `A` and one divisor: 64 features to 64, then to 8. -/
def model (A : ((⟨2, ![50000, 64]⟩ : Shape).Idx → EReal) → ((⟨2, ![50000, 64]⟩ : Shape).Idx → EReal))
    (d : (⟨1, ![50000]⟩ : Shape).Idx → EReal) (x : (⟨2, ![50000, 64]⟩ : Shape).Idx → EReal)
    (Wl1 Wr1 : (⟨2, ![64, 64]⟩ : Shape).Idx → EReal) (b1 : (⟨1, ![64]⟩ : Shape).Idx → EReal)
    (Wl2 Wr2 : (⟨2, ![64, 8]⟩ : Shape).Idx → EReal) (b2 : (⟨1, ![8]⟩ : Shape).Idx → EReal) :
    (⟨2, ![50000, 8]⟩ : Shape).Idx → EReal :=
  layer (A (layer (A x) x d Wl1 Wr1 b1)) (layer (A x) x d Wl1 Wr1 b1) d Wl2 Wr2 b2

end Cert.LibSageLayer

end
-- ==== Proof.KRegion0.lean ====
/-
  The first layer's pallas_call, read as one array: whatever its six input arrays hold when the region is entered,
  its output array ends holding the layer (in the kernel's spelling: reciprocal column, bias row) of them.

  The grid has ten points; point `t` stages rows `5000·t … 5000·t + 4999` of the neighbour sums, of the node features and
  of the reciprocal column, and the two weight matrices and the bias row whole; it writes back rows
  `5000·t … 5000·t + 4999` of the output. A row of the output depends only on the same row of the three row-blocked
  inputs, so what point `t` writes is block `t` of one whole-array function, and the ten blocks tile the 50000 rows.
-/
import proofs.«102011_j46943992545895_1_alg».proof.Proof.Gen.KernelIdeal.Frame
import proofs.«102011_j46943992545895_1_alg».proof.Proof.KBody
import proofs.«102011_j46943992545895_1_alg».proof.Proof.LibSageLayer
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.LibSageLayer

variable (V : (c : Dev nD) → (b : Ref sig .tc) → Buf (Elt Ideal) ((c : Thread nD τ).loc b))

theorem hzR0 : (![0, 0] : Fin 2 → Nat) = fun _ => 0 := funext fun a => by fin_cases a <;> rfl

/-! ## Where each window's block sits at point `t` (decided over the ten points) -/

theorem idxR0_0 : ∀ t : Fin cfg0.N, win0_0.index t (0 : Fin 2) = t.val ∧ win0_0.index t (1 : Fin 2) = 0 :=
  (by decide +kernel : ∀ t : Fin grid0.N, _)
theorem idxR0_1 : ∀ t : Fin cfg0.N, win0_1.index t (0 : Fin 2) = t.val ∧ win0_1.index t (1 : Fin 2) = 0 :=
  (by decide +kernel : ∀ t : Fin grid0.N, _)
theorem idxR0_2 : ∀ t : Fin cfg0.N, win0_2.index t (0 : Fin 2) = t.val ∧ win0_2.index t (1 : Fin 2) = 0 :=
  (by decide +kernel : ∀ t : Fin grid0.N, _)
theorem idxR0_3 : ∀ t : Fin cfg0.N, win0_3.index t (0 : Fin 2) = 0 ∧ win0_3.index t (1 : Fin 2) = 0 :=
  (by decide +kernel : ∀ t : Fin grid0.N, _)
theorem idxR0_4 : ∀ t : Fin cfg0.N, win0_4.index t (0 : Fin 2) = 0 ∧ win0_4.index t (1 : Fin 2) = 0 :=
  (by decide +kernel : ∀ t : Fin grid0.N, _)
theorem idxR0_5 : ∀ t : Fin cfg0.N, win0_5.index t (0 : Fin 2) = 0 ∧ win0_5.index t (1 : Fin 2) = 0 :=
  (by decide +kernel : ∀ t : Fin grid0.N, _)
theorem idxR0_6 : ∀ t : Fin cfg0.N, win0_6.index t (0 : Fin 2) = t.val ∧ win0_6.index t (1 : Fin 2) = 0 :=
  (by decide +kernel : ∀ t : Fin grid0.N, _)

/-! ## Each input block read as rows of its array -/

/-- Row `r` of the neighbour-sum block at point `t` is row `5000·t + r` of the array. -/
theorem iblkR0_0 (c : Dev nD) (t : Fin cfg0.N) (r : Fin 5000) (k : Fin 64) (p : Fin 50000) (hp : p.val = t.val * 5000 + r.val) :
    (iblk0 V c 0 t : Vec Ideal S5000x64 .f32) (ix2 r k) = (V c main_v22 : S50000x64.Idx → EReal) (ix2 p k) := by
  obtain ⟨e0, e1⟩ := idxR0_0 t
  unfold iblk0
  rw [View.read_apply]
  show V c main_v22 _ = V c main_v22 _
  refine congrArg (V c main_v22) (funext fun a => Fin.ext ?_)
  match a with
  | ⟨0, _⟩ => show win0_0.index t 0 * 5000 + 1 * r.val = p.val; rw [e0, hp]; omega
  | ⟨1, _⟩ => show win0_0.index t 1 * 64 + 1 * k.val = k.val; rw [e1]; omega

/-- Row `r` of the node-feature block at point `t` is row `5000·t + r` of the array. -/
theorem iblkR0_1 (c : Dev nD) (t : Fin cfg0.N) (r : Fin 5000) (k : Fin 64) (p : Fin 50000) (hp : p.val = t.val * 5000 + r.val) :
    (iblk0 V c 1 t : Vec Ideal S5000x64 .f32) (ix2 r k) = (V c main_arg0 : S50000x64.Idx → EReal) (ix2 p k) := by
  obtain ⟨e0, e1⟩ := idxR0_1 t
  unfold iblk0
  rw [View.read_apply]
  show V c main_arg0 _ = V c main_arg0 _
  refine congrArg (V c main_arg0) (funext fun a => Fin.ext ?_)
  match a with
  | ⟨0, _⟩ => show win0_1.index t 0 * 5000 + 1 * r.val = p.val; rw [e0, hp]; omega
  | ⟨1, _⟩ => show win0_1.index t 1 * 64 + 1 * k.val = k.val; rw [e1]; omega

/-- Row `r` of the reciprocal-column block at point `t` is row `5000·t + r` of the column. -/
theorem iblkR0_2 (c : Dev nD) (t : Fin cfg0.N) (r : Fin 5000) (u : Fin 1) (p : Fin 50000) (hp : p.val = t.val * 5000 + r.val) :
    (iblk0 V c 2 t : Vec Ideal S5000x1 .f32) (ix2 r u) = (V c main_v12 : S50000x1.Idx → EReal) (ix2 p u) := by
  obtain ⟨e0, e1⟩ := idxR0_2 t
  unfold iblk0
  rw [View.read_apply]
  show V c main_v12 _ = V c main_v12 _
  refine congrArg (V c main_v12) (funext fun a => Fin.ext ?_)
  match a with
  | ⟨0, _⟩ => show win0_2.index t 0 * 5000 + 1 * r.val = p.val; rw [e0, hp]; omega
  | ⟨1, _⟩ => show win0_2.index t 1 * 1 + 1 * u.val = u.val; rw [e1]; omega

/-- The left weights are staged whole. -/
theorem iblkR0_3 (c : Dev nD) (t : Fin cfg0.N) (k : Fin 64) (j : Fin 64) :
    (iblk0 V c 3 t : Vec Ideal S64x64 .f32) (ix2 k j) = (V c main_arg2 : S64x64.Idx → EReal) (ix2 k j) := by
  obtain ⟨e0, e1⟩ := idxR0_3 t
  unfold iblk0
  rw [View.read_apply]
  show V c main_arg2 _ = V c main_arg2 _
  refine congrArg (V c main_arg2) (funext fun a => Fin.ext ?_)
  match a with
  | ⟨0, _⟩ => show win0_3.index t 0 * 64 + 1 * k.val = k.val; rw [e0]; omega
  | ⟨1, _⟩ => show win0_3.index t 1 * 64 + 1 * j.val = j.val; rw [e1]; omega

/-- The bias row is staged whole. -/
theorem iblkR0_4 (c : Dev nD) (t : Fin cfg0.N) (u : Fin 1) (j : Fin 64) :
    (iblk0 V c 4 t : Vec Ideal S1x64 .f32) (ix2 u j) = (V c main_v23 : S1x64.Idx → EReal) (ix2 u j) := by
  obtain ⟨e0, e1⟩ := idxR0_4 t
  unfold iblk0
  rw [View.read_apply]
  show V c main_v23 _ = V c main_v23 _
  refine congrArg (V c main_v23) (funext fun a => Fin.ext ?_)
  match a with
  | ⟨0, _⟩ => show win0_4.index t 0 * 1 + 1 * u.val = u.val; rw [e0]; omega
  | ⟨1, _⟩ => show win0_4.index t 1 * 64 + 1 * j.val = j.val; rw [e1]; omega

/-- The right weights are staged whole. -/
theorem iblkR0_5 (c : Dev nD) (t : Fin cfg0.N) (k : Fin 64) (j : Fin 64) :
    (iblk0 V c 5 t : Vec Ideal S64x64 .f32) (ix2 k j) = (V c main_arg4 : S64x64.Idx → EReal) (ix2 k j) := by
  obtain ⟨e0, e1⟩ := idxR0_5 t
  unfold iblk0
  rw [View.read_apply]
  show V c main_arg4 _ = V c main_arg4 _
  refine congrArg (V c main_arg4) (funext fun a => Fin.ext ?_)
  match a with
  | ⟨0, _⟩ => show win0_5.index t 0 * 64 + 1 * k.val = k.val; rw [e0]; omega
  | ⟨1, _⟩ => show win0_5.index t 1 * 64 + 1 * j.val = j.val; rw [e1]; omega

/-! ## What a point stores is the layer at the block's rows -/

/-- The stored value at `(r, j)`, over blocks that hold row `p` of the arrays, is the layer's output at `(p, j)`. -/
theorem payR0_eq (agg x : S50000x64.Idx → EReal) (inv : S50000x1.Idx → EReal) (Wl Wr : S64x64.Idx → EReal) (brow : S1x64.Idx → EReal)
    (B0 B1 : Vec Ideal S5000x64 .f32) (B2 : Vec Ideal S5000x1 .f32) (B3 B5 : Vec Ideal S64x64 .f32) (B4 : Vec Ideal S1x64 .f32)
    (r : Fin 5000) (j : Fin 64) (p : Fin 50000)
    (h0 : ∀ k : Fin 64, B0 (ix2 r k) = agg (ix2 p k)) (h1 : ∀ k : Fin 64, B1 (ix2 r k) = x (ix2 p k))
    (h2 : B2 (ix2 r (0 : Fin 1)) = inv (ix2 p (0 : Fin 1)))
    (h3 : ∀ k : Fin 64, B3 (ix2 k j) = Wl (ix2 k j)) (h5 : ∀ k : Fin 64, B5 (ix2 k j) = Wr (ix2 k j))
    (h4 : B4 (ix2 (0 : Fin 1) j) = brow (ix2 (0 : Fin 1) j)) :
    k0_pay1 (F := Ideal) B0 B2 B1 B3 B5 B4 (ix2 r j) = layerKAt agg x inv Wl Wr brow p j := by
  rw [pay0_apply]
  unfold layerKAt
  rw [h2, h4]
  refine congrArg₂ (· + ·) (congrArg (· + _) (Finset.sum_congr rfl fun k _ => ?_)) (Finset.sum_congr rfl fun k _ => ?_)
  · rw [h0 k, h3 k]
  · rw [h1 k, h5 k]

/-- WHAT POINT `t` WRITES BACK is block `t` of the layer of the arrays as the region finds them. -/
theorem flushedR0_eq (c : Dev nD) (t : Fin cfg0.N) :
    (dat0 V c).flushed 6 t = ((cfg0.win 6).blk t).view.read (Elt Ideal)
      (layerK (V c main_v22) (V c main_arg0) (V c main_v12) (V c main_arg2) (V c main_arg4) (V c main_v23)) := by
  show (cfg0.win 6).cut (grid0.coords t) ((dat0 V c).after 6 t) = _
  rw [after0_6]
  unfold out0_6
  rw [View.canon_unit_zero hzR0]
  simp only [View.ld_unit_zero (S := S5000x64) hzR0, View.ld_unit_zero (S := S5000x1) hzR0, View.ld_unit_zero (S := S64x64) hzR0, View.ld_unit_zero (S := S1x64) hzR0]
  funext y
  obtain ⟨r, j, rfl⟩ : ∃ (r : Fin 5000) (j : Fin 64), y = ix2 r j := ⟨y 0, y 1, eq_ix2 y⟩
  have ht : t.val < 10 := lt_of_lt_of_eq t.isLt N_0
  have hr : r.val < 5000 := r.isLt
  obtain ⟨e0, e1⟩ := idxR0_6 t
  have hemb : ((cfg0.win 6).blk t).view.emb (ix2 r j) = ix2 (⟨t.val * 5000 + r.val, by omega⟩ : Fin 50000) j :=
    funext fun a => Fin.ext (by
      match a with
      | ⟨0, _⟩ => show win0_6.index t 0 * 5000 + 1 * r.val = t.val * 5000 + r.val; rw [e0]; omega
      | ⟨1, _⟩ => show win0_6.index t 1 * 64 + 1 * j.val = j.val; rw [e1]; omega)
  show k0_pay1 (F := Ideal) (iblk0 V c 0 t) (iblk0 V c 2 t) (iblk0 V c 1 t) (iblk0 V c 3 t) (iblk0 V c 5 t) (iblk0 V c 4 t) (ix2 r j)
    = layerK (V c main_v22) (V c main_arg0) (V c main_v12) (V c main_arg2) (V c main_arg4) (V c main_v23) (((cfg0.win 6).blk t).view.emb (ix2 r j))
  rw [hemb]
  exact payR0_eq (V c main_v22) (V c main_arg0) (V c main_v12) (V c main_arg2) (V c main_arg4) (V c main_v23)
    (iblk0 V c 0 t) (iblk0 V c 1 t) (iblk0 V c 2 t) (iblk0 V c 3 t) (iblk0 V c 5 t) (iblk0 V c 4 t) r j ⟨t.val * 5000 + r.val, by omega⟩
    (fun k => iblkR0_0 V c t r k _ rfl) (fun k => iblkR0_1 V c t r k _ rfl) (iblkR0_2 V c t r 0 _ rfl)
    (fun k => iblkR0_3 V c t k j) (fun k => iblkR0_5 V c t k j) (iblkR0_4 V c t 0 j)

/-! ## The ten blocks tile the array -/

/-- An index of the array is in point `t`'s block iff each coordinate is in the block's range on its axis. -/
theorem mem_blkR0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24).slice (win0_6.rect t)).set ↔ _
  rw [View.set_slice_whole, Rect.mem_set_unit]
  exact Iff.rfl

/-- Row `n` of the output is written back by point `n / 5000`. -/
theorem coverR0 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  have hlt : (i 0).val / 5000 < cfg0.N := by rw [hN]; omega
  refine ⟨⟨(i 0).val / 5000, hlt⟩, flush0_6 _, ?_⟩
  rw [mem_blkR0]
  obtain ⟨e0, e1⟩ := idxR0_6 ⟨(i 0).val / 5000, hlt⟩
  intro a
  match a with
  | ⟨0, _⟩ =>
    show win0_6.index ⟨(i 0).val / 5000, hlt⟩ 0 * 5000 ≤ (i 0).val ∧ (i 0).val < win0_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ 1 * 64 ≤ (i 1).val ∧ (i 1).val < win0_6.index ⟨(i 0).val / 5000, hlt⟩ 1 * 64 + 64
    rw [e1]; omega

/-- THE OUTPUT ARRAY after the region: the layer of the six input arrays as the region found them. -/
theorem finalR0 (c : Dev nD) : (dat0 V c).arrAt 6 cfg0.N
    = layerK (V c main_v22) (V c main_arg0) (V c main_v12) (V c main_arg2) (V c main_arg4) (V c main_v23) :=
  (dat0 V c).arrAt_eq_of_cover 6 _ (fun t _ => flushedR0_eq V c t) coverR0

end Cert.KernelIdeal.Hand

end
-- ==== Proof.KRegion1.lean ====
/-
  The second layer's pallas_call, read as one array: whatever its six input arrays hold when the region is entered,
  its `[50000, 8]` output array ends holding the layer (in the kernel's spelling: reciprocal column, bias row) of them.

  The same schedule as the first layer's: ten points, point `t` staging rows `5000·t … 5000·t + 4999` of the neighbour
  sums, of the first layer's output and of the reciprocal column, the `[64, 8]` weights and the `[1, 8]` bias row whole,
  and writing back the same rows of the output. What point `t` writes is block `t` of one whole-array function, and
  the ten blocks tile the 50000 rows.
-/
import proofs.«102011_j46943992545895_1_alg».proof.Proof.Gen.KernelIdeal.Frame
import proofs.«102011_j46943992545895_1_alg».proof.Proof.KBody
import proofs.«102011_j46943992545895_1_alg».proof.Proof.LibSageLayer
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.LibSageLayer

variable (V : (c : Dev nD) → (b : Ref sig .tc) → Buf (Elt Ideal) ((c : Thread nD τ).loc b))

theorem hzR1 : (![0, 0] : Fin 2 → Nat) = fun _ => 0 := funext fun a => by fin_cases a <;> rfl

/-! ## Where each window's block sits at point `t` (decided over the ten points) -/

theorem idxR1_0 : ∀ t : Fin cfg1.N, win1_0.index t (0 : Fin 2) = t.val ∧ win1_0.index t (1 : Fin 2) = 0 :=
  (by decide +kernel : ∀ t : Fin grid1.N, _)
theorem idxR1_1 : ∀ t : Fin cfg1.N, win1_1.index t (0 : Fin 2) = t.val ∧ win1_1.index t (1 : Fin 2) = 0 :=
  (by decide +kernel : ∀ t : Fin grid1.N, _)
theorem idxR1_2 : ∀ t : Fin cfg1.N, win1_2.index t (0 : Fin 2) = t.val ∧ win1_2.index t (1 : Fin 2) = 0 :=
  (by decide +kernel : ∀ t : Fin grid1.N, _)
theorem idxR1_3 : ∀ t : Fin cfg1.N, win1_3.index t (0 : Fin 2) = 0 ∧ win1_3.index t (1 : Fin 2) = 0 :=
  (by decide +kernel : ∀ t : Fin grid1.N, _)
theorem idxR1_4 : ∀ t : Fin cfg1.N, win1_4.index t (0 : Fin 2) = 0 ∧ win1_4.index t (1 : Fin 2) = 0 :=
  (by decide +kernel : ∀ t : Fin grid1.N, _)
theorem idxR1_5 : ∀ t : Fin cfg1.N, win1_5.index t (0 : Fin 2) = 0 ∧ win1_5.index t (1 : Fin 2) = 0 :=
  (by decide +kernel : ∀ t : Fin grid1.N, _)
theorem idxR1_6 : ∀ t : Fin cfg1.N, win1_6.index t (0 : Fin 2) = t.val ∧ win1_6.index t (1 : Fin 2) = 0 :=
  (by decide +kernel : ∀ t : Fin grid1.N, _)

/-! ## Each input block read as rows of its array -/

/-- Row `r` of the neighbour-sum block at point `t` is row `5000·t + r` of the array. -/
theorem iblkR1_0 (c : Dev nD) (t : Fin cfg1.N) (r : Fin 5000) (k : Fin 64) (p : Fin 50000) (hp : p.val = t.val * 5000 + r.val) :
    (iblk1 V c 0 t : Vec Ideal S5000x64 .f32) (ix2 r k) = (V c main_v34 : S50000x64.Idx → EReal) (ix2 p k) := by
  obtain ⟨e0, e1⟩ := idxR1_0 t
  unfold iblk1
  rw [View.read_apply]
  show V c main_v34 _ = V c main_v34 _
  refine congrArg (V c main_v34) (funext fun a => Fin.ext ?_)
  match a with
  | ⟨0, _⟩ => show win1_0.index t 0 * 5000 + 1 * r.val = p.val; rw [e0, hp]; omega
  | ⟨1, _⟩ => show win1_0.index t 1 * 64 + 1 * k.val = k.val; rw [e1]; omega

/-- Row `r` of the node-feature block at point `t` is row `5000·t + r` of the array. -/
theorem iblkR1_1 (c : Dev nD) (t : Fin cfg1.N) (r : Fin 5000) (k : Fin 64) (p : Fin 50000) (hp : p.val = t.val * 5000 + r.val) :
    (iblk1 V c 1 t : Vec Ideal S5000x64 .f32) (ix2 r k) = (V c main_v24 : S50000x64.Idx → EReal) (ix2 p k) := by
  obtain ⟨e0, e1⟩ := idxR1_1 t
  unfold iblk1
  rw [View.read_apply]
  show V c main_v24 _ = V c main_v24 _
  refine congrArg (V c main_v24) (funext fun a => Fin.ext ?_)
  match a with
  | ⟨0, _⟩ => show win1_1.index t 0 * 5000 + 1 * r.val = p.val; rw [e0, hp]; omega
  | ⟨1, _⟩ => show win1_1.index t 1 * 64 + 1 * k.val = k.val; rw [e1]; omega

/-- Row `r` of the reciprocal-column block at point `t` is row `5000·t + r` of the column. -/
theorem iblkR1_2 (c : Dev nD) (t : Fin cfg1.N) (r : Fin 5000) (u : Fin 1) (p : Fin 50000) (hp : p.val = t.val * 5000 + r.val) :
    (iblk1 V c 2 t : Vec Ideal S5000x1 .f32) (ix2 r u) = (V c main_v12 : S50000x1.Idx → EReal) (ix2 p u) := by
  obtain ⟨e0, e1⟩ := idxR1_2 t
  unfold iblk1
  rw [View.read_apply]
  show V c main_v12 _ = V c main_v12 _
  refine congrArg (V c main_v12) (funext fun a => Fin.ext ?_)
  match a with
  | ⟨0, _⟩ => show win1_2.index t 0 * 5000 + 1 * r.val = p.val; rw [e0, hp]; omega
  | ⟨1, _⟩ => show win1_2.index t 1 * 1 + 1 * u.val = u.val; rw [e1]; omega

/-- The left weights are staged whole. -/
theorem iblkR1_3 (c : Dev nD) (t : Fin cfg1.N) (k : Fin 64) (j : Fin 8) :
    (iblk1 V c 3 t : Vec Ideal S64x8 .f32) (ix2 k j) = (V c main_arg5 : S64x8.Idx → EReal) (ix2 k j) := by
  obtain ⟨e0, e1⟩ := idxR1_3 t
  unfold iblk1
  rw [View.read_apply]
  show V c main_arg5 _ = V c main_arg5 _
  refine congrArg (V c main_arg5) (funext fun a => Fin.ext ?_)
  match a with
  | ⟨0, _⟩ => show win1_3.index t 0 * 64 + 1 * k.val = k.val; rw [e0]; omega
  | ⟨1, _⟩ => show win1_3.index t 1 * 8 + 1 * j.val = j.val; rw [e1]; omega

/-- The bias row is staged whole. -/
theorem iblkR1_4 (c : Dev nD) (t : Fin cfg1.N) (u : Fin 1) (j : Fin 8) :
    (iblk1 V c 4 t : Vec Ideal S1x8 .f32) (ix2 u j) = (V c main_v35 : S1x8.Idx → EReal) (ix2 u j) := by
  obtain ⟨e0, e1⟩ := idxR1_4 t
  unfold iblk1
  rw [View.read_apply]
  show V c main_v35 _ = V c main_v35 _
  refine congrArg (V c main_v35) (funext fun a => Fin.ext ?_)
  match a with
  | ⟨0, _⟩ => show win1_4.index t 0 * 1 + 1 * u.val = u.val; rw [e0]; omega
  | ⟨1, _⟩ => show win1_4.index t 1 * 8 + 1 * j.val = j.val; rw [e1]; omega

/-- The right weights are staged whole. -/
theorem iblkR1_5 (c : Dev nD) (t : Fin cfg1.N) (k : Fin 64) (j : Fin 8) :
    (iblk1 V c 5 t : Vec Ideal S64x8 .f32) (ix2 k j) = (V c main_arg7 : S64x8.Idx → EReal) (ix2 k j) := by
  obtain ⟨e0, e1⟩ := idxR1_5 t
  unfold iblk1
  rw [View.read_apply]
  show V c main_arg7 _ = V c main_arg7 _
  refine congrArg (V c main_arg7) (funext fun a => Fin.ext ?_)
  match a with
  | ⟨0, _⟩ => show win1_5.index t 0 * 64 + 1 * k.val = k.val; rw [e0]; omega
  | ⟨1, _⟩ => show win1_5.index t 1 * 8 + 1 * j.val = j.val; rw [e1]; omega

/-! ## What a point stores is the layer at the block's rows -/

/-- The stored value at `(r, j)`, over blocks that hold row `p` of the arrays, is the layer's output at `(p, j)`. -/
theorem payR1_eq (agg x : S50000x64.Idx → EReal) (inv : S50000x1.Idx → EReal) (Wl Wr : S64x8.Idx → EReal) (brow : S1x8.Idx → EReal)
    (B0 B1 : Vec Ideal S5000x64 .f32) (B2 : Vec Ideal S5000x1 .f32) (B3 B5 : Vec Ideal S64x8 .f32) (B4 : Vec Ideal S1x8 .f32)
    (r : Fin 5000) (j : Fin 8) (p : Fin 50000)
    (h0 : ∀ k : Fin 64, B0 (ix2 r k) = agg (ix2 p k)) (h1 : ∀ k : Fin 64, B1 (ix2 r k) = x (ix2 p k))
    (h2 : B2 (ix2 r (0 : Fin 1)) = inv (ix2 p (0 : Fin 1)))
    (h3 : ∀ k : Fin 64, B3 (ix2 k j) = Wl (ix2 k j)) (h5 : ∀ k : Fin 64, B5 (ix2 k j) = Wr (ix2 k j))
    (h4 : B4 (ix2 (0 : Fin 1) j) = brow (ix2 (0 : Fin 1) j)) :
    k1_pay1 (F := Ideal) B0 B2 B1 B3 B5 B4 (ix2 r j) = layerKAt agg x inv Wl Wr brow p j := by
  rw [pay1_apply]
  unfold layerKAt
  rw [h2, h4]
  refine congrArg₂ (· + ·) (congrArg (· + _) (Finset.sum_congr rfl fun k _ => ?_)) (Finset.sum_congr rfl fun k _ => ?_)
  · rw [h0 k, h3 k]
  · rw [h1 k, h5 k]

/-- WHAT POINT `t` WRITES BACK is block `t` of the layer of the arrays as the region finds them. -/
theorem flushedR1_eq (c : Dev nD) (t : Fin cfg1.N) :
    (dat1 V c).flushed 6 t = ((cfg1.win 6).blk t).view.read (Elt Ideal)
      (layerK (V c main_v34) (V c main_v24) (V c main_v12) (V c main_arg5) (V c main_arg7) (V c main_v35)) := by
  show (cfg1.win 6).cut (grid1.coords t) ((dat1 V c).after 6 t) = _
  rw [after1_6]
  unfold out1_6
  rw [View.canon_unit_zero hzR1]
  simp only [View.ld_unit_zero (S := S5000x64) hzR1, View.ld_unit_zero (S := S5000x1) hzR1, View.ld_unit_zero (S := S64x8) hzR1, View.ld_unit_zero (S := S1x8) hzR1]
  funext y
  obtain ⟨r, j, rfl⟩ : ∃ (r : Fin 5000) (j : Fin 8), y = ix2 r j := ⟨y 0, y 1, eq_ix2 y⟩
  have ht : t.val < 10 := lt_of_lt_of_eq t.isLt N_1
  have hr : r.val < 5000 := r.isLt
  obtain ⟨e0, e1⟩ := idxR1_6 t
  have hemb : ((cfg1.win 6).blk t).view.emb (ix2 r j) = ix2 (⟨t.val * 5000 + r.val, by omega⟩ : Fin 50000) j :=
    funext fun a => Fin.ext (by
      match a with
      | ⟨0, _⟩ => show win1_6.index t 0 * 5000 + 1 * r.val = t.val * 5000 + r.val; rw [e0]; omega
      | ⟨1, _⟩ => show win1_6.index t 1 * 8 + 1 * j.val = j.val; rw [e1]; omega)
  show k1_pay1 (F := Ideal) (iblk1 V c 0 t) (iblk1 V c 2 t) (iblk1 V c 1 t) (iblk1 V c 3 t) (iblk1 V c 5 t) (iblk1 V c 4 t) (ix2 r j)
    = layerK (V c main_v34) (V c main_v24) (V c main_v12) (V c main_arg5) (V c main_arg7) (V c main_v35) (((cfg1.win 6).blk t).view.emb (ix2 r j))
  rw [hemb]
  exact payR1_eq (V c main_v34) (V c main_v24) (V c main_v12) (V c main_arg5) (V c main_arg7) (V c main_v35)
    (iblk1 V c 0 t) (iblk1 V c 1 t) (iblk1 V c 2 t) (iblk1 V c 3 t) (iblk1 V c 5 t) (iblk1 V c 4 t) r j ⟨t.val * 5000 + r.val, by omega⟩
    (fun k => iblkR1_0 V c t r k _ rfl) (fun k => iblkR1_1 V c t r k _ rfl) (iblkR1_2 V c t r 0 _ rfl)
    (fun k => iblkR1_3 V c t k j) (fun k => iblkR1_5 V c t k j) (iblkR1_4 V c t 0 j)

/-! ## The ten blocks tile the array -/

/-- An index of the array is in point `t`'s block iff each coordinate is in the block's range on its axis. -/
theorem mem_blkR1 (t : Fin cfg1.N) (i : S50000x8.Idx) :
    i ∈ ((cfg1.win 6).blk t).view.set ↔ ∀ a : Fin 2, win1_6.index t a * S5000x8.size a ≤ (i a).val ∧ (i a).val < win1_6.index t a * S5000x8.size a + S5000x8.size a := by
  show i ∈ ((View.whole main_v36).slice (win1_6.rect t)).set ↔ _
  rw [View.set_slice_whole, Rect.mem_set_unit]
  exact Iff.rfl

/-- Row `n` of the output is written back by point `n / 5000`. -/
theorem coverR1 (i : S50000x8.Idx) : ∃ t : Fin cfg1.N, (cfg1.win 6).flush t = true ∧ i ∈ ((cfg1.win 6).blk t).view.set := by
  have hi0 : (i 0).val < 50000 := (i 0).isLt
  have hi1 : (i 1).val < 8 := (i 1).isLt
  have hN : cfg1.N = 10 := N_1
  have hlt : (i 0).val / 5000 < cfg1.N := by rw [hN]; omega
  refine ⟨⟨(i 0).val / 5000, hlt⟩, flush1_6 _, ?_⟩
  rw [mem_blkR1]
  obtain ⟨e0, e1⟩ := idxR1_6 ⟨(i 0).val / 5000, hlt⟩
  intro a
  match a with
  | ⟨0, _⟩ =>
    show win1_6.index ⟨(i 0).val / 5000, hlt⟩ 0 * 5000 ≤ (i 0).val ∧ (i 0).val < win1_6.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ 1 * 8 ≤ (i 1).val ∧ (i 1).val < win1_6.index ⟨(i 0).val / 5000, hlt⟩ 1 * 8 + 8
    rw [e1]; omega

/-- THE OUTPUT ARRAY after the region: the layer of the six input arrays as the region found them. -/
theorem finalR1 (c : Dev nD) : (dat1 V c).arrAt 6 cfg1.N
    = layerK (V c main_v34) (V c main_v24) (V c main_v12) (V c main_arg5) (V c main_arg7) (V c main_v35) :=
  (dat1 V c).arrAt_eq_of_cover 6 _ (fun t _ => flushedR1_eq V c t) coverR1

end Cert.KernelIdeal.Hand

end
-- ==== Proof.KValue.lean ====
/-
  The idealized kernel program's result array as one function of its arguments.

  Between the two pallas_calls the program runs on the host: the in-degree of every node (ones scattered-added onto
  destination rows), clamped below by one, its reciprocal, reshaped to a column; the neighbour sum of the input
  features (source rows gathered, scattered-added onto destination rows); after the first region, the neighbour sum of
  that region's output. Each region's output array is the layer of its input arrays as the region finds them
  (the two region modules), and each input array is read back here through the fold of the segments to the host
  operations that wrote it, or to the launch memory. Put together: the result array is the second layer, in the
  kernel's spelling, of the neighbour sum of the first layer's output, of that output, of the reciprocal column, of the
  second layer's weights and of its bias row.
-/
import proofs.«102011_j46943992545895_1_alg».proof.Proof.Gen.KernelIdeal.Frame
import proofs.«102011_j46943992545895_1_alg».proof.Proof.KRegion0
import proofs.«102011_j46943992545895_1_alg».proof.Proof.KRegion1
import proofs.«102011_j46943992545895_1_alg».proof.Proof.LibSageLayer
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.Pipeline (Dat)
open Cert.LibSageLayer

/-! ## The host operations' results as functions -/

section Defs
variable {F : FTy → Type} [FloatOps F]

/-- The edge list's row of source nodes. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge list's row of destination nodes. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour sum of an array `y` of node features over the edge list `e`: source rows gathered (a negative
    index wrapped by the row count first), then added onto their destination rows, from zero. -/
def aggK (y : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstRow (F := F) e))
    (Host.gather gather_S50000x64_S800000x1_S800000x64_1_0_n_n_0_1_164 y
      (broadcastInDim S800000x1 ![0] bcast_S800000_S800000x1_0
        (select (cmpi .slt (srcRow (F := F) e) (broadcastInDim S800000 ![] bcast_S_S800000 (constantI S_ 32 0#32)))
          (addi (srcRow (F := F) e) (broadcastInDim S800000 ![] bcast_S_S800000 (constantI S_ 32 50000#32)))
          (srcRow (F := F) e))))

/-- The in-degree of every node, clamped below by one. -/
def degK (e : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 (dstRow (F := F) e))
      (broadcastInDim S800000 ![] bcast_S_S800000 (constant S_ .f32 0x3F800000#32)))
    (broadcastInDim S50000 ![] bcast_S_S50000 (constant S_ .f32 0x3F800000#32))

/-- One over the clamped in-degree, as a column. -/
def invK (e : (⟨S2x800000, .i32⟩ : BufTy).Contents (Elt F)) : (⟨S50000x1, .f32⟩ : BufTy).Contents (Elt F) :=
  shapeCast _ (Host.divf (broadcastInDim S50000 ![] bcast_S_S50000 (constant S_ .f32 0x3F800000#32)) (degK (F := F) e)) shapeCasts_S50000_S50000x1

end Defs

variable (m : (ℓ : Loc nD τ sig) → Buf (Elt Ideal) ℓ) (ρ : Dev nD → PrngReg)

/-! ## The first region's input arrays, read back through the first host stretch -/

set_option maxHeartbeats 1000000 in
theorem V1_v22 (c : Dev nD) : V1 m ρ c main_v22
    = aggK (F := Ideal) (m ((c : Thread nD τ).loc main_arg0)) (m ((c : Thread nD τ).loc main_arg1)) := by
  show StableHlo.after hostOps0 (W0 m ρ c) (Proc.devRef .tc main_v22) = _
  after_results_simp
  rfl

theorem V1_v12 (c : Dev nD) : V1 m ρ c main_v12 = invK (F := Ideal) (m ((c : Thread nD τ).loc main_arg1)) := by
  show StableHlo.after hostOps0 (W0 m ρ c) (Proc.devRef .tc main_v12) = _
  after_results
  rfl

theorem V1_v23 (c : Dev nD) : V1 m ρ c main_v23 = shapeCast S1x64 (m ((c : Thread nD τ).loc main_arg3)) shapeCasts_S64_S1x64 := by
  show StableHlo.after hostOps0 (W0 m ρ c) (Proc.devRef .tc main_v23) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg4 (c : Dev nD) : V1 m ρ c main_arg4 = m ((c : Thread nD τ).loc main_arg4) := by
  show StableHlo.after hostOps0 (W0 m ρ c) (Proc.devRef .tc main_arg4) = _
  after_results

/-- THE FIRST LAYER'S OUTPUT, in the kernel's spelling, as a function of the launch memory. -/
def hK (c : Dev nD) : (⟨2, ![50000, 64]⟩ : Shape).Idx → EReal :=
  layerK (aggK (F := Ideal) (m ((c : Thread nD τ).loc main_arg0)) (m ((c : Thread nD τ).loc main_arg1)))
    (m ((c : Thread nD τ).loc main_arg0)) (invK (F := Ideal) (m ((c : Thread nD τ).loc main_arg1)))
    (m ((c : Thread nD τ).loc main_arg2)) (m ((c : Thread nD τ).loc main_arg4))
    (shapeCast S1x64 (m ((c : Thread nD τ).loc main_arg3)) shapeCasts_S64_S1x64)

/-! ## The buffers at the first region's exit -/

theorem W2_v24 (c : Dev nD) : W2 m ρ c (Proc.devRef .tc main_v24) = hK m c := by
  refine (W2_arr m ρ c 6).trans ((finalR0 (V1 m ρ) c).trans ?_)
  rw [V1_v22, V1_v12, V1_v23, V1_arg0, V1_arg2, V1_arg4]
  rfl

theorem W2_v12 (c : Dev nD) : W2 m ρ c (Proc.devRef .tc main_v12) = invK (F := Ideal) (m ((c : Thread nD τ).loc main_arg1)) :=
  (W2_arr m ρ c 2).trans ((((dat0 (V1 m ρ) c).arrAt_in 2 rfl _).trans (A_eq0 (V1 m ρ) c 2)).trans (V1_v12 m ρ c))

theorem W2_v1 (c : Dev nD) : W2 m ρ c (Proc.devRef .tc main_v1) = srcRow (F := Ideal) (m ((c : Thread nD τ).loc main_arg1)) := by
  refine (W2_of_ne m ρ c main_v1 (by decide)).trans ?_
  show StableHlo.after hostOps0 (W0 m ρ c) (Proc.devRef .tc main_v1) = _
  after_results
  rfl

theorem W2_v3 (c : Dev nD) : W2 m ρ c (Proc.devRef .tc main_v3) = dstRow (F := Ideal) (m ((c : Thread nD τ).loc main_arg1)) := by
  refine (W2_of_ne m ρ c main_v3 (by decide)).trans ?_
  show StableHlo.after hostOps0 (W0 m ρ c) (Proc.devRef .tc main_v3) = _
  after_results
  rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## The second region's input arrays, read back through the second host stretch -/

theorem V3_v34 (c : Dev nD) : V3 m ρ c main_v34 = aggK (F := Ideal) (hK m c) (m ((c : Thread nD τ).loc main_arg1)) := by
  show StableHlo.after hostOps1 (W2 m ρ c) (Proc.devRef .tc main_v34) = _
  after_results
  rw [W2_v1, W2_v3, W2_v24]
  rfl

theorem V3_v24 (c : Dev nD) : V3 m ρ c main_v24 = hK m c := by
  show StableHlo.after hostOps1 (W2 m ρ c) (Proc.devRef .tc main_v24) = _
  after_results
  exact W2_v24 m ρ c

theorem V3_v12 (c : Dev nD) : V3 m ρ c main_v12 = invK (F := Ideal) (m ((c : Thread nD τ).loc main_arg1)) := by
  show StableHlo.after hostOps1 (W2 m ρ c) (Proc.devRef .tc main_v12) = _
  after_results
  exact W2_v12 m ρ c

theorem V3_arg5 (c : Dev nD) : V3 m ρ c main_arg5 = m ((c : Thread nD τ).loc main_arg5) := by
  show StableHlo.after hostOps1 (W2 m ρ c) (Proc.devRef .tc main_arg5) = _
  after_results
  exact W2_arg5 m ρ c

theorem V3_arg7 (c : Dev nD) : V3 m ρ c main_arg7 = m ((c : Thread nD τ).loc main_arg7) := by
  show StableHlo.after hostOps1 (W2 m ρ c) (Proc.devRef .tc main_arg7) = _
  after_results
  exact W2_arg7 m ρ c

theorem V3_v35 (c : Dev nD) : V3 m ρ c main_v35 = shapeCast S1x8 (m ((c : Thread nD τ).loc main_arg6)) shapeCasts_S8_S1x8 := by
  show StableHlo.after hostOps1 (W2 m ρ c) (Proc.devRef .tc main_v35) = _
  after_results
  rw [W2_arg6]
  rfl

/-! ## The result array -/

/-- THE RESULT, in the kernel's spelling, as a function of the launch memory. -/
def outK (c : Dev nD) : (⟨2, ![50000, 8]⟩ : Shape).Idx → EReal :=
  layerK (aggK (F := Ideal) (hK m c) (m ((c : Thread nD τ).loc main_arg1))) (hK m c)
    (invK (F := Ideal) (m ((c : Thread nD τ).loc main_arg1)))
    (m ((c : Thread nD τ).loc main_arg5)) (m ((c : Thread nD τ).loc main_arg7))
    (shapeCast S1x8 (m ((c : Thread nD τ).loc main_arg6)) shapeCasts_S8_S1x8)

/-- The last segment boundary's contents at the result buffer. -/
theorem W4_v36 (c : Dev nD) : W4 m ρ c (Proc.devRef .tc main_v36) = outK m c := by
  refine (W4_arr m ρ c 6).trans ((finalR1 (V3 m ρ) c).trans ?_)
  rw [V3_v34, V3_v24, V3_v12, V3_arg5, V3_arg7, V3_v35]
  rfl

end Cert.KernelIdeal.Hand

end
-- ==== Proof.KRun.lean ====
/-
  The idealized kernel program's run, with its result array NAMED.

  The program is a stretch of host operations, the first layer's pallas_call, a second stretch of host operations and the
  second layer's pallas_call. Every weakly fair execution terminates without a fault, and every unscoped buffer of a
  core then holds what the fold of the four segments leaves there: the launch contents pushed through the first host
  stretch, the first region's write-backs, the second host stretch and the second region's write-backs (`W4`). Read at
  the argument buffers that fold walks back to the launch memory; read at the result buffer it is the second region's
  output array, which the value lemmas then open.
-/
import proofs.«102011_j46943992545895_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement is matched against the several-segment launch theorem's conclusion up to unfolding of plain definitions
set_option backward.isDefEq.respectTransparency.types false in
/-- Every weakly fair execution of the program terminates, nothing faulting; the result buffer ends at the last
    segment boundary's contents there, and the eight argument arrays end as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KModel.lean ====
/-
  The idealized kernel program's run, read: its result array is the two-layer model of its arguments.

  The kernel's spelling of a layer multiplies the neighbour sums by a reciprocal column and reads its bias from a row; the
  column holds `1 / max(deg, 1)` (an `[50000]` vector viewed as a column) and the row holds the bias vector (viewed as a
  `[1, Fo]` row). The clamped degree is at least one, so it is never zero, and `a * (1 / y) = a / y` on the extended reals
  for every `y ≠ 0`: each layer in the kernel's spelling is the layer that divides.
-/
import proofs.«102011_j46943992545895_1_alg».proof.Proof.KValue
import proofs.«102011_j46943992545895_1_alg».proof.Proof.KRun
import proofs.«102011_j46943992545895_1_alg».proof.Proof.LibKeepdims
import proofs.«102011_j46943992545895_1_alg».proof.Proof.LibSageLayer
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.LibSageLayer

/-- The array of ones reads `1` at every node. -/
theorem ones_apply (p : Fin 50000) :
    broadcastInDim S50000 ![] bcast_S_S50000 (constant (F := Ideal) S_ .f32 0x3F800000#32) (ix1 p) = 1 := by
  rw [broadcastInDim_scalar_apply, constant_apply, Ideal.ofBits_one_f32]

/-- The clamped in-degree is nowhere zero: it is a maximum with one. -/
theorem degK_ne_zero (e : (⟨S2x800000, .i32⟩ : BufTy).Contents (Elt Ideal)) (p : Fin 50000) : degK (F := Ideal) e (ix1 p) ≠ 0 := by
  unfold degK
  rw [maximumf_apply, ones_apply]
  exact max_one_ne_zero _

/-- The reciprocal column at row `p` is one over the clamped in-degree of node `p`. -/
theorem invK_apply (e : (⟨S2x800000, .i32⟩ : BufTy).Contents (Elt Ideal)) (p : Fin 50000) :
    invK (F := Ideal) e (ix2 p (0 : Fin 1)) = Ideal.div 1 (degK (F := Ideal) e (ix1 p)) := by
  unfold invK
  rw [LibKeepdims.shapeCast_a_a1_apply, hostDivf_apply, ones_apply]

variable (m : (ℓ : Loc nD τ sig) → Buf (Elt Ideal) ℓ) (ρ : Dev nD → PrngReg)

/-- The first layer's output in the kernel's spelling is the layer that divides. -/
theorem hK_eq (c : Dev nD) : hK m c
    = layer (aggK (F := Ideal) (m ((c : Thread nD τ).loc main_arg0)) (m ((c : Thread nD τ).loc main_arg1))) (m ((c : Thread nD τ).loc main_arg0)) (degK (F := Ideal) (m ((c : Thread nD τ).loc main_arg1))) (m ((c : Thread nD τ).loc main_arg2)) (m ((c : Thread nD τ).loc main_arg4)) (m ((c : Thread nD τ).loc main_arg3)) :=
  layerK_eq_layer _ _ (degK (F := Ideal) (m ((c : Thread nD τ).loc main_arg1))) _ _ (m ((c : Thread nD τ).loc main_arg3)) _ _
    (degK_ne_zero (m ((c : Thread nD τ).loc main_arg1))) (invK_apply (m ((c : Thread nD τ).loc main_arg1))) (fun j => shapeCast_a_1a_apply _ _ 0 j)

/-- THE RESULT is the two-layer model of the arguments, over the program's own neighbour sum and clamped degree. -/
theorem outK_eq_model (c : Dev nD) : outK m c
    = model (fun y => aggK (F := Ideal) y (m ((c : Thread nD τ).loc main_arg1))) (degK (F := Ideal) (m ((c : Thread nD τ).loc main_arg1))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg6)) := by
  unfold outK model
  rw [layerK_eq_layer _ _ (degK (F := Ideal) (m ((c : Thread nD τ).loc main_arg1))) _ _ (m ((c : Thread nD τ).loc main_arg6)) _ _
    (degK_ne_zero (m ((c : Thread nD τ).loc main_arg1))) (invK_apply (m ((c : Thread nD τ).loc main_arg1))) (fun j => shapeCast_a_1a_apply _ _ 0 j), hK_eq]

/-- The run, read: the result array at the two-layer model of the launch contents of the arguments, the arguments
    unchanged. -/
theorem run : θ_run defs (onTc (τ := τ) (main (F := Ideal))) ⟨m, fun _ => 0, ρ⟩ (fun r => ∀ c : Dev nD,
      r.2.mem ((c.tc : Thread nD τ).loc main_v36)
        = model (fun y => aggK (F := Ideal) y (m ((c : Thread nD τ).loc main_arg1))) (degK (F := Ideal) (m ((c : Thread nD τ).loc main_arg1))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg7)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((W4_v36 m ρ c).trans (outK_eq_model m c)), (h c).2⟩) (run_named m ρ)

end Cert.KernelIdeal.Hand

end
-- ==== Proof.RefValue.lean ====
/-
  The reference, read as two layers.

  The reference computes, per layer, the neighbour sum (a gather of source rows scattered-added onto destination rows),
  the in-degree clamped below by one, the quotient of the two row by row, and then
  `quotient · Wl + bl + x · Wr` with the host's matrix product. Read index by index on the extended reals, the host's
  matrix product is the sum over the 64 contracted positions and each layout step moves an index, so each layer is the
  array `layer` of the neighbour sum, the layer's input, the clamped degree, the weights and the bias. The second layer's
  neighbour sum is the same gather-and-scatter applied to the first layer's output, and its clamped degree is the first
  layer's (the same operations on the same edge list).
-/
import proofs.«102011_j46943992545895_1_alg».proof.Proof.Gen.ReferenceIdeal.Read
import proofs.«102011_j46943992545895_1_alg».proof.Proof.LibSageLayer
import Idealize.ShloMosaic.Lib.ValueIdx
import Idealize.ShloMosaic.PureOps.Ideal

noncomputable section

namespace Cert.ReferenceIdeal.Hand

open Cert.ReferenceIdeal Cert.ReferenceIdeal.Gen Cert.ReferenceIdeal.Read Idealize.ShloMosaic Idealize.ShloMosaic.ValueIdx
open Cert.LibSageLayer

/-- The neighbour sum of an array `y` of node features over the edge list `e`: source rows gathered, then added onto
    their destination rows, from zero. -/
def aggR {F : FTy → Type} [FloatOps F] (y : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1 (val_main_v11 (F := F)) (val_main_v12 (F := F) e)
    (Host.gather gather_S50000x64_S800000x1_S800000x64_1_0_n_n_0_1_164 y (val_main_v9 (F := F) e))

/-- The first layer's neighbour sum is `aggR` of the input features. -/
theorem v13_eq (x0 : (⟨S50000x64, .f32⟩ : BufTy).Contents (Elt Ideal)) (x1 : (⟨S2x800000, .i32⟩ : BufTy).Contents (Elt Ideal)) :
    val_main_v13 (F := Ideal) x0 x1 = aggR (F := Ideal) x0 x1 := rfl

/-- The second layer's neighbour sum is `aggR` of the first layer's output: the same index columns, recomputed. -/
theorem v38_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v38 (F := Ideal) x0 x1 x2 x3 x4 = aggR (F := Ideal) (val_main_v28 (F := Ideal) x0 x1 x2 x3 x4) x1 := rfl

/-- The second layer's clamped degree is the first layer's. -/
theorem v44_eq (x1 : (⟨S2x800000, .i32⟩ : BufTy).Contents (Elt Ideal)) : val_main_v44 (F := Ideal) x1 = val_main_v19 (F := Ideal) x1 := rfl

/-! ## Layer 1 -/

theorem layer1_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v28 (F := Ideal) x0 x1 x2 x3 x4
      = layer (val_main_v13 (F := Ideal) x0 x1) x0 (val_main_v19 (F := Ideal) x1) x2 x4 x3 := by
  funext i
  obtain ⟨p, j, rfl⟩ : ∃ (p : Fin 50000) (j : Fin 64), i = ix2 p j := ⟨i 0, i 1, eq_ix2 i⟩
  show _ = layerAt (val_main_v13 (F := Ideal) x0 x1) x0 (val_main_v19 (F := Ideal) x1) x2 x4 x3 p j
  have eL (k : Fin 64) : lidx_main_v23 (ix2 p j) k = ix2 p k := funext fun a => Fin.ext (by match a with | ⟨0, _⟩ => rfl | ⟨1, _⟩ => rfl)
  have eR (k : Fin 64) : ridx_main_v23 (ix2 p j) k = ix2 k j := funext fun a => Fin.ext (by match a with | ⟨0, _⟩ => rfl | ⟨1, _⟩ => rfl)
  have eL' (k : Fin 64) : lidx_main_v27 (ix2 p j) k = ix2 p k := funext fun a => Fin.ext (by match a with | ⟨0, _⟩ => rfl | ⟨1, _⟩ => rfl)
  have eR' (k : Fin 64) : ridx_main_v27 (ix2 p j) k = ix2 k j := funext fun a => Fin.ext (by match a with | ⟨0, _⟩ => rfl | ⟨1, _⟩ => rfl)
  have eB : idx_main_v24 (idx_main_v25 (ix2 p j)) = ix1 j := funext fun a => Fin.ext (by match a with | ⟨0, _⟩ => rfl)
  have eD (k : Fin 64) : idx_main_v20 (idx_main_v21 (ix2 p k)) = ix1 p := funext fun a => Fin.ext (by match a with | ⟨0, _⟩ => rfl)
  have hdiv (k : Fin 64) : val_main_v22 (F := Ideal) x0 x1 (ix2 p k)
      = Ideal.div (val_main_v13 (F := Ideal) x0 x1 (ix2 p k)) (val_main_v19 (F := Ideal) x1 (ix1 p)) := by
    rw [val_main_v22_apply, val_main_v21_apply, val_main_v20_apply, eD k]; rfl
  have hbias : val_main_v25 (F := Ideal) x3 (ix2 p j) = x3 (ix1 j) := by
    rw [val_main_v25_apply, val_main_v24_apply, eB]
  rw [val_main_v28_apply, val_main_v26_apply, val_main_v23_apply, val_main_v27_apply, hbias]
  simp only [Ideal.addf_def, eL, eR, eL', eR', hdiv]
  rfl

/-! ## Layer 2 -/

theorem layer2_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x8, .f32⟩ : BufTy).Contents (Elt Ideal)) (x6 : (⟨S8, .f32⟩ : BufTy).Contents (Elt Ideal)) (x7 : (⟨S64x8, .f32⟩ : BufTy).Contents (Elt Ideal)) :
    val_main_v53 (F := Ideal) x0 x1 x2 x3 x4 x5 x6 x7
      = layer (val_main_v38 (F := Ideal) x0 x1 x2 x3 x4) (val_main_v28 (F := Ideal) x0 x1 x2 x3 x4) (val_main_v44 (F := Ideal) x1) x5 x7 x6 := by
  funext i
  obtain ⟨p, j, rfl⟩ : ∃ (p : Fin 50000) (j : Fin 8), i = ix2 p j := ⟨i 0, i 1, eq_ix2 i⟩
  show _ = layerAt (val_main_v38 (F := Ideal) x0 x1 x2 x3 x4) (val_main_v28 (F := Ideal) x0 x1 x2 x3 x4) (val_main_v44 (F := Ideal) x1) x5 x7 x6 p j
  have eL (k : Fin 64) : lidx_main_v48 (ix2 p j) k = ix2 p k := funext fun a => Fin.ext (by match a with | ⟨0, _⟩ => rfl | ⟨1, _⟩ => rfl)
  have eR (k : Fin 64) : ridx_main_v48 (ix2 p j) k = ix2 k j := funext fun a => Fin.ext (by match a with | ⟨0, _⟩ => rfl | ⟨1, _⟩ => rfl)
  have eL' (k : Fin 64) : lidx_main_v52 (ix2 p j) k = ix2 p k := funext fun a => Fin.ext (by match a with | ⟨0, _⟩ => rfl | ⟨1, _⟩ => rfl)
  have eR' (k : Fin 64) : ridx_main_v52 (ix2 p j) k = ix2 k j := funext fun a => Fin.ext (by match a with | ⟨0, _⟩ => rfl | ⟨1, _⟩ => rfl)
  have eB : idx_main_v49 (idx_main_v50 (ix2 p j)) = ix1 j := funext fun a => Fin.ext (by match a with | ⟨0, _⟩ => rfl)
  have eD (k : Fin 64) : idx_main_v45 (idx_main_v46 (ix2 p k)) = ix1 p := funext fun a => Fin.ext (by match a with | ⟨0, _⟩ => rfl)
  have hdiv (k : Fin 64) : val_main_v47 (F := Ideal) x0 x1 x2 x3 x4 (ix2 p k)
      = Ideal.div (val_main_v38 (F := Ideal) x0 x1 x2 x3 x4 (ix2 p k)) (val_main_v44 (F := Ideal) x1 (ix1 p)) := by
    rw [val_main_v47_apply, val_main_v46_apply, val_main_v45_apply, eD k]; rfl
  have hbias : val_main_v50 (F := Ideal) x6 (ix2 p j) = x6 (ix1 j) := by
    rw [val_main_v50_apply, val_main_v49_apply, eB]
  rw [val_main_v53_apply, val_main_v51_apply, val_main_v48_apply, val_main_v52_apply, hbias]
  simp only [Ideal.addf_def, eL, eR, eL', eR', hdiv]
  rfl

/-! ## The whole reference -/

/-- The reference's result is the two-layer model over its own neighbour sum and clamped degree. -/
theorem ref_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x8, .f32⟩ : BufTy).Contents (Elt Ideal)) (x6 : (⟨S8, .f32⟩ : BufTy).Contents (Elt Ideal)) (x7 : (⟨S64x8, .f32⟩ : BufTy).Contents (Elt Ideal)) :
    val_main_v53 (F := Ideal) x0 x1 x2 x3 x4 x5 x6 x7
      = model (fun y => aggR (F := Ideal) y x1) (val_main_v19 (F := Ideal) x1) x0 x2 x4 x3 x5 x7 x6 := by
  rw [layer2_eq, v38_eq, v44_eq, layer1_eq, v13_eq]
  rfl

end Cert.ReferenceIdeal.Hand

end
-- ==== Proof.lean ====
/-
  A two-layer mean-aggregation graph network (64 features to 64, then to 8) over 50000 nodes and 800000 edges: the Pallas
  program against its jnp reference, as extended reals.

  Both programs compute, on the host, the in-degree of every node clamped below by one and, per layer, the neighbour sum of
  the layer's input (source rows gathered, scattered-added onto destination rows). The reference then divides the neighbour
  sums by the clamped degree and forms `quotient · Wl + bl + x · Wr`. The Pallas program precomputes the reciprocal of the
  clamped degree once, and each layer's pallas_call, in ten row blocks of 5000 nodes, multiplies the neighbour sums by
  it before the same two matrix products and bias (its roundings to bf16 are the identity on the extended reals, and a
  matrix product into a zero accumulator is the plain sum).

  The one law between the two: `a / y = a * (1 / y)` for every extended real `a` and every `y ≠ 0` — both are
  `a * y⁻¹` — and a degree clamped below by one is never zero. No finiteness of the inputs is used.

  * Proof/LibSageLayer.lean — the layer in both spellings, the law, the two-layer model.
  * Proof/KBody.lean, KRegion0.lean, KRegion1.lean — what a grid point stores; each pallas_call's output array as the
    layer of its input arrays.
  * Proof/KRun.lean, KValue.lean, KModel.lean — the Pallas program's run with its result array named, the host
    operations read back, the result as the model of the arguments.
  * Proof/RefValue.lean — the reference's result as the model of the arguments.
  * here — the two programs' neighbour sums and clamped degrees are the same operations on the same edge list, and the
    five claims.
-/
import proofs.«102011_j46943992545895_1_alg».proof.Defs
import proofs.«102011_j46943992545895_1_alg».proof.Proof.Gen.Kernel
import proofs.«102011_j46943992545895_1_alg».proof.Proof.Gen.Kernel.Skeleton
import proofs.«102011_j46943992545895_1_alg».proof.Proof.Gen.Kernel.Launch
import proofs.«102011_j46943992545895_1_alg».proof.Proof.Gen.Kernel.Points
import proofs.«102011_j46943992545895_1_alg».proof.Proof.Gen.Kernel.Frame
import proofs.«102011_j46943992545895_1_alg».proof.Proof.Gen.KernelIdeal
import proofs.«102011_j46943992545895_1_alg».proof.Proof.Gen.KernelIdeal.Skeleton
import proofs.«102011_j46943992545895_1_alg».proof.Proof.Gen.KernelIdeal.Launch
import proofs.«102011_j46943992545895_1_alg».proof.Proof.Gen.KernelIdeal.Points
import proofs.«102011_j46943992545895_1_alg».proof.Proof.Gen.KernelIdeal.Frame
import proofs.«102011_j46943992545895_1_alg».proof.Proof.Gen.ReferenceIdeal
import proofs.«102011_j46943992545895_1_alg».proof.Proof.Gen.ReferenceIdeal.Run
import proofs.«102011_j46943992545895_1_alg».proof.Proof.Gen.ReferenceIdeal.Read
import proofs.«102011_j46943992545895_1_alg».proof.Proof.Gen.Pre_finite_inputs
import proofs.«102011_j46943992545895_1_alg».proof.Proof.KModel
import proofs.«102011_j46943992545895_1_alg».proof.Proof.RefValue
import Idealize.ShloMosaic.Adequacy
import Idealize.ShloMosaic.Init

set_option maxRecDepth 16384

noncomputable section

namespace Cert.Proof

open Idealize.ShloMosaic Idealize.SL.Sem Cert.LibSageLayer

/-- The two programs' neighbour sums are one function: the same gather and scatter-add over the same index columns. -/
theorem agg_eq (y : (⟨Cert.ReferenceIdeal.S50000x64, .f32⟩ : BufTy).Contents (Elt Ideal))
    (e : (⟨Cert.ReferenceIdeal.S2x800000, .i32⟩ : BufTy).Contents (Elt Ideal)) :
    Cert.ReferenceIdeal.Hand.aggR (F := Ideal) y e = Cert.KernelIdeal.Hand.aggK (F := Ideal) y e := rfl

/-- The two programs' clamped degrees are one function. -/
theorem deg_eq (e : (⟨Cert.ReferenceIdeal.S2x800000, .i32⟩ : BufTy).Contents (Elt Ideal)) :
    Cert.ReferenceIdeal.Read.val_main_v19 (F := Ideal) e = Cert.KernelIdeal.Hand.degK (F := Ideal) e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- Both idealized programs end, from memories that agree on the arguments, with the two-layer model of the arguments
    in their result arrays: the Pallas program's by its run read back, the reference's by its run read back, the models
    over one neighbour sum and one clamped degree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v53_eq, Cert.ReferenceIdeal.Hand.ref_eq, h0, h1, h2, h3, h4, h5, h6, h7]
  exact congrArg₂ (fun A d => model A d (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)))
    (funext fun y => agg_eq y _) (deg_eq _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
